-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x16 : Shape := ⟨4, ![4, 16, 4096, 16]⟩
abbrev S_ : Shape := ⟨0, ![]⟩

class Facts : Prop where
  bcast_S_S4x16x4096x16 : S_.BroadcastsInDim S4x16x4096x16 (![] : Fin 0 → Fin S4x16x4096x16.rank)
  reducesTo_S4x16x4096x16_S_d0_1_2_3 : S4x16x4096x16.ReducesTo [0, 1, 2, 3] S_
  h_S_ : 0 < S_.numel

variable [Facts]

def fn {F : FTy → Type} [FloatOps F] (main_arg0 : FVec F S4x16x4096x16 .f32) : IVec S_ 1 :=
  let main_v0 : FVec F S4x16x4096x16 .f32 := Host.absf main_arg0
  let main_cst : FVec F S_ .f32 := constant S_ .f32 0x7F800000#32
  let main_v1 : FVec F S4x16x4096x16 .f32 := broadcastInDim S4x16x4096x16 ![] bcast_S_S4x16x4096x16 main_cst
  let main_v2 : IVec S4x16x4096x16 1 := cmpf .olt main_v0 main_v1
  let main_c : IVec S_ 1 := constantI S_ 1 1#1
  let main_v3 : IVec S_ 1 := (fun x v => Host.reduce IntOp.andi x v reducesTo_S4x16x4096x16_S_d0_1_2_3 h_S_) main_v2 main_c
  main_v3
-- ==== Kernel.lean ====
abbrev S4x16x4096x16 : Shape := ⟨4, ![4, 16, 4096, 16]⟩
abbrev S64x4096x16 : Shape := ⟨3, ![64, 4096, 16]⟩
abbrev S64x4096x256 : Shape := ⟨3, ![64, 4096, 256]⟩
abbrev S1x1024x16 : Shape := ⟨3, ![1, 1024, 16]⟩
abbrev S1x1024x256 : Shape := ⟨3, ![1, 1024, 256]⟩
abbrev S1024x16 : Shape := ⟨2, ![1024, 16]⟩
abbrev S1024x16x1 : Shape := ⟨3, ![1024, 16, 1]⟩
abbrev S1024x1x16 : Shape := ⟨3, ![1024, 1, 16]⟩
abbrev S1024x16x16 : Shape := ⟨3, ![1024, 16, 16]⟩
abbrev S1024x256 : Shape := ⟨2, ![1024, 256]⟩
abbrev S4x16x4096x256 : Shape := ⟨4, ![4, 16, 4096, 256]⟩

abbrev nBuf : Space → Nat
  | .hbm => 4
  | .vmem => 4
  | .smem => 0
  | _ => 0

abbrev bufTy : (tb : Table) → Fin (tcTables nBuf tb) → BufTy
  | .hbm, ⟨0, _⟩ => ⟨S4x16x4096x16, .f32⟩
  | .hbm, ⟨1, _⟩ => ⟨S64x4096x16, .f32⟩
  | .hbm, ⟨2, _⟩ => ⟨S64x4096x256, .f32⟩
  | .hbm, ⟨3, _⟩ => ⟨S4x16x4096x256, .f32⟩
  | .local _ .vmem, ⟨0, _⟩ => ⟨S1x1024x16, .f32⟩
  | .local _ .vmem, ⟨1, _⟩ => ⟨S1x1024x16, .f32⟩
  | .local _ .vmem, ⟨2, _⟩ => ⟨S1x1024x256, .f32⟩
  | .local _ .vmem, ⟨3, _⟩ => ⟨S1x1024x256, .f32⟩
  | _, _ => ⟨S4x16x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S4x16x4096x16_S64x4096x16 : S4x16x4096x16.ShapeCasts S64x4096x16
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  shapeCasts_S1024x16_S1024x16x1 : S1024x16.ShapeCasts S1024x16x1
  shapeCasts_S1024x16_S1024x1x16 : S1024x16.ShapeCasts S1024x1x16
  broadcasts_S1024x16x1_S1024x16x16 : S1024x16x1.Broadcasts S1024x16x16
  broadcasts_S1024x1x16_S1024x16x16 : S1024x1x16.Broadcasts S1024x16x16
  shapeCasts_S1024x16x16_S1024x256 : S1024x16x16.ShapeCasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  shapeCasts_S64x4096x256_S4x16x4096x256 : S64x4096x256.ShapeCasts S4x16x4096x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x16.size a ≤ S64x4096x16.size a
  hwx0_0 : ∀ i : grid0.Coords, EltTy.bits .f32 = 32 ∨ (Rect.block (s := S64x4096x16) S1x1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S64x4096x256.size a
  hwx0_1 : ∀ i : grid0.Coords, EltTy.bits .f32 = 32 ∨ (Rect.block (s := S64x4096x256) S1x1024x256.size (cc0_transform_1 i) (hinb0_1 i)).WholeWords (EltTy.packing .f32)

variable [Facts₀]

abbrev win0_0 : Pipeline.Window sig grid0 :=
  Pipeline.Window.ofSpec (Memref.whole main_v0) S1x1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x16x4096x16 : Shape := ⟨4, ![4, 16, 4096, 16]⟩
abbrev S4x16x4096x16x1 : Shape := ⟨5, ![4, 16, 4096, 16, 1]⟩
abbrev S4x16x4096x1x16 : Shape := ⟨5, ![4, 16, 4096, 1, 16]⟩
abbrev S4x16x4096x16x16 : Shape := ⟨5, ![4, 16, 4096, 16, 16]⟩
abbrev S4x16x4096x256 : Shape := ⟨4, ![4, 16, 4096, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x16x4096x16, .f32⟩
  | .hbm, ⟨1, _⟩ => ⟨S4x16x4096x16x1, .f32⟩
  | .hbm, ⟨2, _⟩ => ⟨S4x16x4096x1x16, .f32⟩
  | .hbm, ⟨3, _⟩ => ⟨S4x16x4096x16x16, .f32⟩
  | .hbm, ⟨4, _⟩ => ⟨S4x16x4096x16x16, .f32⟩
  | .hbm, ⟨5, _⟩ => ⟨S4x16x4096x16x16, .f32⟩
  | .hbm, ⟨6, _⟩ => ⟨S4x16x4096x256, .f32⟩
  | .hbm, ⟨7, _⟩ => ⟨S_, .f32⟩
  | .hbm, ⟨8, _⟩ => ⟨S4x16x4096x256, .f32⟩
  | .hbm, ⟨9, _⟩ => ⟨S4x16x4096x256, .f32⟩
  | _, _ => ⟨S4x16x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S4x16x4096x16_S4x16x4096x16x1_0_1_2_3 : S4x16x4096x16.BroadcastsInDim S4x16x4096x16x1 (![0, 1, 2, 3] : Fin 4 → Fin S4x16x4096x16x1.rank)
  bcast_S4x16x4096x16_S4x16x4096x1x16_0_1_2_4 : S4x16x4096x16.BroadcastsInDim S4x16x4096x1x16 (![0, 1, 2, 4] : Fin 4 → Fin S4x16x4096x1x16.rank)
  bcast_S4x16x4096x16x1_S4x16x4096x16x16_0_1_2_3_4 : S4x16x4096x16x1.BroadcastsInDim S4x16x4096x16x16 (![0, 1, 2, 3, 4] : Fin 5 → Fin S4x16x4096x16x16.rank)
  bcast_S4x16x4096x1x16_S4x16x4096x16x16_0_1_2_3_4 : S4x16x4096x1x16.BroadcastsInDim S4x16x4096x16x16 (![0, 1, 2, 3, 4] : Fin 5 → Fin S4x16x4096x16x16.rank)
  shapeCasts_S4x16x4096x16x16_S4x16x4096x256 : S4x16x4096x16x16.ShapeCasts S4x16x4096x256
  bcast_S_S4x16x4096x256 : S_.BroadcastsInDim S4x16x4096x256 (![] : Fin 0 → Fin S4x16x4096x256.rank)

variable [Facts₀]

class Facts : Prop extends Facts₀ where

variable [Facts]
-- ==== Proof.Spec.lean ====
/-
  The feature map of this certificate, stated once over the extended reals and over no program.

  For an array x of shape [4, 16, 4096, 16], the result has shape [4, 16, 4096, 256]: its entry at
  (b, h, s, k) is x[b,h,s,k/16] · x[b,h,s,k%16] · ¼ — the outer product of the last axis with itself,
  flattened row-major (k = 16·p + q pairs the entries p and q), scaled by 1/√16 = ¼.

  Two facts about it are proved here. First, the quotient by the float 4.0 is, on EVERY extended real, the product
  with the float 0.25: both words denote exact dyadic rationals, and the ideal quotient by a nonzero real is the
  product with its reciprocal — no finiteness is needed. Second, the same map computed on the array viewed as
  [64, 4096, 16] (the two leading axes merged, row-major) and viewed back as [4, 16, 4096, 256] is the map itself:
  merging (b, h) into 16·b + h moves neither the row s nor the column.
-/
import Idealize.ShloMosaic.PureOps.Ideal
import Idealize.ShloMosaic.Lib.ValueIdx
import Idealize.ShloMosaic.Lib.Pipeline.Value

noncomputable section

namespace Cert.Outer

open Idealize.ShloMosaic Idealize.ShloMosaic.ValueIdx

/-- The argument's shape, the result's, and the two with the leading axes merged. -/
abbrev A4 : Shape := ⟨4, ![4, 16, 4096, 16]⟩
abbrev R4 : Shape := ⟨4, ![4, 16, 4096, 256]⟩
abbrev A3 : Shape := ⟨3, ![64, 4096, 16]⟩
abbrev R3 : Shape := ⟨3, ![64, 4096, 256]⟩

/-! ## The two constants -/

/-- The word of `0.25` denotes the rational ¼. -/
theorem ofBits_quarter : Ideal.ofBits .f32 0x3E800000#32 = ((1 / 4 : ℝ) : EReal) := by
  simp [Ideal.ofBits, Ideal.ieee, -EReal.coe_mul]; norm_num

/-- The word of `4.0` denotes the real 4. -/
theorem ofBits_four : Ideal.ofBits .f32 0x40800000#32 = ((4 : ℝ) : EReal) := by
  simp [Ideal.ofBits, Ideal.ieee, -EReal.coe_mul]; norm_num

/-- Dividing by 4.0 is multiplying by 0.25, on every extended real (the infinities included: 4 is a nonzero real). -/
theorem div_four (y : EReal) :
    Ideal.div y (Ideal.ofBits .f32 0x40800000#32) = y * Ideal.ofBits .f32 0x3E800000#32 := by
  rw [ofBits_four, ofBits_quarter, Ideal.div_coe (by norm_num : (4 : ℝ) ≠ 0)]

/-! ## The map -/

/-- Column `k` of the result pairs entry `k / 16` … -/
abbrev hi (k : Fin 256) : Fin 16 := ⟨k.val / 16, by have := k.isLt; omega⟩
/-- … with entry `k % 16`. -/
abbrev lo (k : Fin 256) : Fin 16 := ⟨k.val % 16, by omega⟩

/-- The scaled outer product of the last axis with itself, flattened: the result as one function of the argument. -/
def outer (x : FVec Ideal A4 .f32) : FVec Ideal R4 .f32 := fun i =>
  x (ix4 (i 0) (i 1) (i 2) (hi (i 3))) * x (ix4 (i 0) (i 1) (i 2) (lo (i 3))) * Ideal.ofBits .f32 0x3E800000#32

/-- The same map on rows: of an array [64, 4096, 16], to [64, 4096, 256]. -/
def outerRows (y : FVec Ideal A3 .f32) : FVec Ideal R3 .f32 := fun i =>
  y (ix3 (i 0) (i 1) (hi (i 2))) * y (ix3 (i 0) (i 1) (lo (i 2))) * Ideal.ofBits .f32 0x3E800000#32

/-- The merged view of the argument at (16·b + h, s, d) is the argument at (b, h, s, d). -/
theorem merged_apply (x : FVec Ideal A4 .f32) (h1 : A4.ShapeCasts A3) (b : Fin 4) (h : Fin 16) (s : Fin 4096) (d : Fin 16)
    (bh : Fin 64) (e : bh.val = b.val * 16 + h.val) :
    shapeCast A3 x h1 (ix3 bh s d) = x (ix4 b h s d) :=
  shapeCast_apply x h1 (ix3 bh s d) (ix4 b h s d) (by
    rw [Shape.rowMajor_val_three, Shape.rowMajor_val_four]
    show ((b.val * 16 + h.val) * 4096 + s.val) * 16 + d.val = (bh.val * 4096 + s.val) * 16 + d.val
    rw [e])

/-- Computed on the merged view and viewed back, the row map is the map. -/
theorem outerRows_reshape (x : FVec Ideal A4 .f32) (h1 : A4.ShapeCasts A3) (h2 : R3.ShapeCasts R4) :
    shapeCast R4 (outerRows (shapeCast A3 x h1)) h2 = outer x := by
  funext i
  have b0 : (i 0).val < 4 := (i 0).isLt
  have b1 : (i 1).val < 16 := (i 1).isLt
  have hbh : (i 0).val * 16 + (i 1).val < 64 := by omega
  rw [shapeCast_apply _ h2 i (ix3 (⟨(i 0).val * 16 + (i 1).val, hbh⟩ : Fin 64) (i 2) (i 3)) (by
    rw [Shape.rowMajor_val_three, Shape.rowMajor_val_four]
    show (((i 0).val * 16 + (i 1).val) * 4096 + (i 2).val) * 256 + (i 3).val
      = (((i 0).val * 16 + (i 1).val) * 4096 + (i 2).val) * 256 + (i 3).val
    rfl)]
  show shapeCast A3 x h1 (ix3 _ (i 2) (hi (i 3))) * shapeCast A3 x h1 (ix3 _ (i 2) (lo (i 3))) * _ = _
  rw [merged_apply x h1 (i 0) (i 1) (i 2) (hi (i 3)) _ rfl, merged_apply x h1 (i 0) (i 1) (i 2) (lo (i 3)) _ rfl]
  rfl

end Cert.Outer

end
-- ==== Proof.RefValue.lean ====
/-
  The reference, read at an index, is the feature map of Proof/Spec.lean.

  The reference broadcasts the argument twice into [4, 16, 4096, 16, 16] — once constant along the last axis, once
  along the one before —, multiplies, flattens the last two axes row-major and divides by 4.0. At (b, h, s, k) the
  flattening reads the product at (b, h, s, k / 16, k % 16), so the entry is x[b,h,s,k/16] · x[b,h,s,k%16] divided by
  4, which is the product with ¼ on every extended real.
-/
import proofs.«104835_j23983097380979_2_alg».proof.Proof.Gen.ReferenceIdeal.Read
import proofs.«104835_j23983097380979_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Outer

/-- Through the flattening and the first pair of broadcasts, column `k` reads the argument's entry `k / 16`. -/
theorem idx_hi (i : S4x16x4096x256.Idx) :
    idx_main_v0 (idx_main_v2 (idx_main_v5 i)) = ix4 (i 0) (i 1) (i 2) (hi (i 3)) := by
  have h0 : (i 0).val < 4 := (i 0).isLt
  have h1 : (i 1).val < 16 := (i 1).isLt
  have h2 : (i 2).val < 4096 := (i 2).isLt
  have h3 : (i 3).val < 256 := (i 3).isLt
  funext a; apply Fin.ext
  match a with
  | ⟨0, _⟩ => show ((((i 0).val * 16 + (i 1).val) * 4096 + (i 2).val) * 256 + (i 3).val) / 16777216 = (i 0).val; omega
  | ⟨1, _⟩ => show ((((i 0).val * 16 + (i 1).val) * 4096 + (i 2).val) * 256 + (i 3).val) / 1048576 % 16 = (i 1).val; omega
  | ⟨2, _⟩ => show ((((i 0).val * 16 + (i 1).val) * 4096 + (i 2).val) * 256 + (i 3).val) / 256 % 4096 = (i 2).val; omega
  | ⟨3, _⟩ => show ((((i 0).val * 16 + (i 1).val) * 4096 + (i 2).val) * 256 + (i 3).val) / 16 % 16 = (i 3).val / 16; omega

/-- Through the flattening and the second pair of broadcasts, column `k` reads the argument's entry `k % 16`. -/
theorem idx_lo (i : S4x16x4096x256.Idx) :
    idx_main_v1 (idx_main_v3 (idx_main_v5 i)) = ix4 (i 0) (i 1) (i 2) (lo (i 3)) := by
  have h0 : (i 0).val < 4 := (i 0).isLt
  have h1 : (i 1).val < 16 := (i 1).isLt
  have h2 : (i 2).val < 4096 := (i 2).isLt
  have h3 : (i 3).val < 256 := (i 3).isLt
  funext a; apply Fin.ext
  match a with
  | ⟨0, _⟩ => show ((((i 0).val * 16 + (i 1).val) * 4096 + (i 2).val) * 256 + (i 3).val) / 16777216 = (i 0).val; omega
  | ⟨1, _⟩ => show ((((i 0).val * 16 + (i 1).val) * 4096 + (i 2).val) * 256 + (i 3).val) / 1048576 % 16 = (i 1).val; omega
  | ⟨2, _⟩ => show ((((i 0).val * 16 + (i 1).val) * 4096 + (i 2).val) * 256 + (i 3).val) / 256 % 4096 = (i 2).val; omega
  | ⟨3, _⟩ => show ((((i 0).val * 16 + (i 1).val) * 4096 + (i 2).val) * 256 + (i 3).val) % 16 = (i 3).val % 16; omega

/-- The reference's last stage is the feature map of its argument. -/
theorem ref_eq (x : FVec Ideal S4x16x4096x16 .f32) : val_main_v7 (F := Ideal) x = outer x := by
  funext i
  rw [val_main_v7_apply, val_main_v5_apply, val_main_v4_apply, val_main_v2_apply, val_main_v3_apply,
    val_main_v0_apply, val_main_v1_apply, val_main_v6_apply, val_main_cst_apply, idx_hi, idx_lo]
  exact div_four _

end Cert.ReferenceIdeal.RefValue

end
-- ==== Proof.Payload.lean ====
/-
  The kernel body's stored value, read at an index.

  The body loads a block [1, 1024, 16], views it as rows [1024, 16], and forms the outer product of each row with
  itself: the row viewed [1024, 16, 1] and broadcast along the last axis (entry (r, p, q) reads the row's entry p)
  times the row viewed [1024, 1, 16] and broadcast along the middle axis (entry (r, p, q) reads entry q). It flattens
  the last two axes row-major (column k reads (k / 16, k % 16)), multiplies by the float 0.25, and views the result as
  a block [1, 1024, 256]. So the stored block at (0, r, k) is x[0,r,k/16] · x[0,r,k%16] · ¼.
  Each layout step is read at coordinates by the row-major position it preserves.
-/
import proofs.«104835_j23983097380979_2_alg».proof.Proof.Gen.KernelIdeal.Skeleton
import proofs.«104835_j23983097380979_2_alg».proof.Proof.Spec
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx Cert.Outer

variable {α : Type}

/-- The block viewed as rows: row `r`, entry `p` is the block's (0, r, p). -/
theorem rows_apply (x : S1x1024x16.Idx → α) (h : S1x1024x16.ShapeCasts S1024x16) (z : Fin 1) (r : Fin 1024) (p : Fin 16) :
    shapeCast S1024x16 x h (ix2 r p) = x (ix3 z r p) :=
  shapeCast_apply x h (ix2 r p) (ix3 z r p) (by
    rw [Shape.rowMajor_val_three, Shape.rowMajor_val_two]
    show (z.val * 1024 + r.val) * 16 + p.val = r.val * 16 + p.val
    have := z.isLt; omega)

/-- A row as a column, repeated along the last axis: (r, p, q) reads the row's entry `p`. -/
theorem col_apply (v : S1024x16.Idx → α) (h : S1024x16.ShapeCasts S1024x16x1) (hb : S1024x16x1.Broadcasts S1024x16x16)
    (r : Fin 1024) (p q : Fin 16) :
    broadcastTo S1024x16x16 (shapeCast S1024x16x1 v h) hb (ix3 r p q) = v (ix2 r p) :=
  (broadcastTo_apply _ hb (ix3 r p q) (ix3 r p (0 : Fin 1)) (fun a => match a with
    | ⟨0, _⟩ => rfl
    | ⟨1, _⟩ => rfl
    | ⟨2, _⟩ => rfl)).trans
  (shapeCast_apply v h (ix3 r p (0 : Fin 1)) (ix2 r p) (by
    rw [Shape.rowMajor_val_three, Shape.rowMajor_val_two]
    show r.val * 16 + p.val = (r.val * 16 + p.val) * 1 + 0
    omega))

/-- A row as a row, repeated along the middle axis: (r, p, q) reads the row's entry `q`. -/
theorem row_apply (v : S1024x16.Idx → α) (h : S1024x16.ShapeCasts S1024x1x16) (hb : S1024x1x16.Broadcasts S1024x16x16)
    (r : Fin 1024) (p q : Fin 16) :
    broadcastTo S1024x16x16 (shapeCast S1024x1x16 v h) hb (ix3 r p q) = v (ix2 r q) :=
  (broadcastTo_apply _ hb (ix3 r p q) (ix3 r (0 : Fin 1) q) (fun a => match a with
    | ⟨0, _⟩ => rfl
    | ⟨1, _⟩ => rfl
    | ⟨2, _⟩ => rfl)).trans
  (shapeCast_apply v h (ix3 r (0 : Fin 1) q) (ix2 r q) (by
    rw [Shape.rowMajor_val_three, Shape.rowMajor_val_two]
    show r.val * 16 + q.val = (r.val * 1 + 0) * 16 + q.val
    omega))

/-- The last two axes flattened row-major: column `k` reads (k / 16, k % 16). -/
theorem flat_apply (v : S1024x16x16.Idx → α) (h : S1024x16x16.ShapeCasts S1024x256) (r : Fin 1024) (k : Fin 256) :
    shapeCast S1024x256 v h (ix2 r k) = v (ix3 r (hi k) (lo k)) :=
  shapeCast_apply v h (ix2 r k) (ix3 r (hi k) (lo k)) (by
    rw [Shape.rowMajor_val_three, Shape.rowMajor_val_two]
    show (r.val * 16 + k.val / 16) * 16 + k.val % 16 = r.val * 256 + k.val
    omega)

/-- The rows viewed as a block: (0, r, k) reads row `r`, column `k`. -/
theorem block_apply (v : S1024x256.Idx → α) (h : S1024x256.ShapeCasts S1x1024x256) (z : Fin 1) (r : Fin 1024) (k : Fin 256) :
    shapeCast S1x1024x256 v h (ix3 z r k) = v (ix2 r k) :=
  shapeCast_apply v h (ix3 z r k) (ix2 r k) (by
    rw [Shape.rowMajor_val_three, Shape.rowMajor_val_two]
    show r.val * 256 + k.val = (z.val * 1024 + r.val) * 256 + k.val
    have := z.isLt; omega)

/-- The stored block at (0, r, k): the product of the loaded block's entries k / 16 and k % 16 of row r, times ¼. -/
theorem pay_apply (x0 : Vec Ideal S1x1024x16 .f32) (z : Fin 1) (r : Fin 1024) (k : Fin 256) :
    k0_pay1 (F := Ideal) x0 (ix3 z r k)
      = x0 (ix3 z r (hi k)) * x0 (ix3 z r (lo k)) * Ideal.ofBits .f32 0x3E800000#32 := by
  unfold k0_pay1
  refine (block_apply _ _ z r k).trans ?_
  refine congrArg (· * Ideal.ofBits .f32 0x3E800000#32) ?_
  refine (flat_apply _ _ r k).trans ?_
  refine congrArg₂ (· * ·) ?_ ?_
  · exact (col_apply _ _ _ r (hi k) (lo k)).trans (rows_apply x0 _ z r (hi k))
  · exact (row_apply _ _ _ r (hi k) (lo k)).trans (rows_apply x0 _ z r (lo k))

end Cert.KernelIdeal.Payload

end
-- ==== Proof.Blocks.lean ====
/-
  From the kernel's blocks to its result array.

  The grid has 64 × 4 points; point (a, b) fetches rows [1024·b, 1024·b + 1024) of slab a of the merged argument
  [64, 4096, 16] and writes back the same rows of slab a of the result [64, 4096, 256]: the two windows' block indices
  agree on the slab and row axes and are 0 on the last axis (decided once over the grid). What a point writes back is
  therefore the block, at that point, of ONE function of the whole merged argument — the row map of Proof/Spec.lean —,
  because the map reads only the row it writes. The result's blocks tile its array (every (slab, row / 1024) is some
  point's), so after the region the array holds the row map of the merged argument; and the merged argument is the
  host's reshape of the kernel's argument.
-/
import proofs.«104835_j23983097380979_2_alg».proof.Proof.Gen.KernelIdeal.Frame
import proofs.«104835_j23983097380979_2_alg».proof.Proof.Payload

set_option maxRecDepth 16384

noncomputable section

namespace Cert.KernelIdeal.Blocks

open Cert.KernelIdeal Cert.KernelIdeal.Gen Cert.KernelIdeal.Payload
open Idealize.ShloMosaic Idealize.ShloMosaic.TcCoe Idealize.ShloMosaic.Tactic Idealize.ShloMosaic.ValueIdx Cert.Outer
open Idealize.SL Idealize.SL.Sem
open Idealize.ShloMosaic.Pipeline (Dat Cfg Window)

variable (m : (ℓ : Loc nD τ sig) → Buf (Elt Ideal) ℓ)

theorem zero3 : (![0, 0, 0] : Fin 3 → Nat) = fun _ => 0 := funext fun a => by fin_cases a <;> rfl

/-- The printed index maps over the grid: the input's block sits on the output's slab and row block, and both are at
    block 0 of the last axis. -/
theorem index_agree : ∀ t : Fin cfg0.N, win0_0.index t (0 : Fin 3) = win0_1.index t (0 : Fin 3)
    ∧ win0_0.index t (1 : Fin 3) = win0_1.index t (1 : Fin 3)
    ∧ win0_0.index t (2 : Fin 3) = 0
    ∧ win0_1.index t (2 : Fin 3) = 0 :=
  (by decide +kernel : ∀ t : Fin grid0.N, _)

/-- Every (slab, row block) is some point's. -/
theorem index_onto : ∀ (q0 : Fin 64) (q1 : Fin 4), ∃ t : Fin cfg0.N, win0_1.index t = ![q0.val, q1.val, 0] :=
  (by decide +kernel : ∀ (q0 : Fin 64) (q1 : Fin 4), ∃ t : Fin grid0.N, win0_1.index t = ![q0.val, q1.val, 0])

/-- One entry: a block `x0` that reads the array `Y` through `e0`, at a row and a column whose two source entries `e0`
    places on the row and the columns the row map reads at `E`, gives the row map of `Y` at `E`. -/
theorem point_eq (Y : FVec Ideal A3 .f32) (x0 : Vec Ideal S1x1024x16 .f32) (e0 : S1x1024x16.Idx → A3.Idx) (E : R3.Idx)
    (z : Fin 1) (r : Fin 1024) (k : Fin 256) (hx : ∀ y, x0 y = Y (e0 y))
    (hhi : e0 (ix3 z r (hi k)) = ix3 (E 0) (E 1) (hi (E 2))) (hlo : e0 (ix3 z r (lo k)) = ix3 (E 0) (E 1) (lo (E 2))) :
    x0 (ix3 z r (hi k)) * x0 (ix3 z r (lo k)) * Ideal.ofBits .f32 0x3E800000#32 = outerRows Y E := by
  rw [hx, hx, hhi, hlo]
  rfl

/-- What point `t` writes back is block `t` of the row map of the merged argument. -/
theorem flushed_eq (c : Dev nD) (t : Fin cfg0.N) :
    (dats m 0 c).flushed 1 t = ((cfg0.win 1).blk t).view.read (Elt Ideal) (outerRows (V m c main_v0)) := by
  show (cfg0.win 1).cut (grid0.coords t) ((dats m 0 c).after 1 t) = _
  rw [after0_1]
  unfold out0_1
  rw [View.canon_unit_zero zero3]
  simp only [View.ld_unit_zero (S := S1x1024x16) zero3]
  obtain ⟨e0, e1, e2, e3⟩ := index_agree t
  refine funext fun (j : S1x1024x256.Idx) => ?_
  obtain ⟨z, r, k, rfl⟩ : ∃ (z : Fin 1) (r : Fin 1024) (k : Fin 256), j = ix3 z r k := ⟨j 0, j 1, j 2, eq_ix3 j⟩
  refine (pay_apply (iblk m c 0 t) z r k).trans ?_
  have hk : k.val < 256 := k.isLt
  have hhi : ((cfg0.win 0).blk t).view.emb (ix3 z r (hi k))
      = ix3 (((cfg0.win 1).blk t).view.emb (ix3 z r k) 0) (((cfg0.win 1).blk t).view.emb (ix3 z r k) 1)
          (hi (((cfg0.win 1).blk t).view.emb (ix3 z r k) 2)) := by
    funext a; apply Fin.ext
    match a with
    | ⟨0, _⟩ => show win0_0.index t (0 : Fin 3) * 1 + 1 * z.val = win0_1.index t (0 : Fin 3) * 1 + 1 * z.val; omega
    | ⟨1, _⟩ => show win0_0.index t (1 : Fin 3) * 1024 + 1 * r.val = win0_1.index t (1 : Fin 3) * 1024 + 1 * r.val; omega
    | ⟨2, _⟩ => show win0_0.index t (2 : Fin 3) * 16 + 1 * (k.val / 16) = (win0_1.index t (2 : Fin 3) * 256 + 1 * k.val) / 16; omega
  have hlo : ((cfg0.win 0).blk t).view.emb (ix3 z r (lo k))
      = ix3 (((cfg0.win 1).blk t).view.emb (ix3 z r k) 0) (((cfg0.win 1).blk t).view.emb (ix3 z r k) 1)
          (lo (((cfg0.win 1).blk t).view.emb (ix3 z r k) 2)) := by
    funext a; apply Fin.ext
    match a with
    | ⟨0, _⟩ => show win0_0.index t (0 : Fin 3) * 1 + 1 * z.val = win0_1.index t (0 : Fin 3) * 1 + 1 * z.val; omega
    | ⟨1, _⟩ => show win0_0.index t (1 : Fin 3) * 1024 + 1 * r.val = win0_1.index t (1 : Fin 3) * 1024 + 1 * r.val; omega
    | ⟨2, _⟩ => show win0_0.index t (2 : Fin 3) * 16 + 1 * (k.val % 16) = (win0_1.index t (2 : Fin 3) * 256 + 1 * k.val) % 16; omega
  exact point_eq (V m c main_v0) (iblk m c 0 t) ((cfg0.win 0).blk t).view.emb (((cfg0.win 1).blk t).view.emb (ix3 z r k)) z r k
    (fun y => rfl) hhi hlo

/-- An index of the result array is in point `t`'s block iff each coordinate is in the block's range on its axis. -/
theorem mem_blk (t : Fin cfg0.N) (i : S64x4096x256.Idx) :
    i ∈ ((cfg0.win 1).blk t).view.set ↔ ∀ a : Fin 3, win0_1.index t a * S1x1024x256.size a ≤ (i a).val
      ∧ (i a).val < win0_1.index t a * S1x1024x256.size a + S1x1024x256.size a := by
  show i ∈ ((View.whole main_v1).slice (win0_1.rect t)).set ↔ _
  rw [View.set_slice_whole, Rect.mem_set_unit]
  exact Iff.rfl

/-- The blocks tile the result array: row `s` of slab `a` is in the block of the point at (a, s / 1024). -/
theorem cover (i : S64x4096x256.Idx) :
    ∃ t : Fin cfg0.N, (cfg0.win 1).flush t = true ∧ i ∈ ((cfg0.win 1).blk t).view.set := by
  have hi0 : (i 0).val < 64 := (i 0).isLt
  have hi1 : (i 1).val < 4096 := (i 1).isLt
  have hi2 : (i 2).val < 256 := (i 2).isLt
  obtain ⟨t, ht⟩ := index_onto ⟨(i 0).val, hi0⟩ ⟨(i 1).val / 1024, by omega⟩
  have q0 : win0_1.index t (0 : Fin 3) = (i 0).val := congrFun ht 0
  have q1 : win0_1.index t (1 : Fin 3) = (i 1).val / 1024 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 256 ≤ (i 2).val ∧ (i 2).val < win0_1.index t (2 : Fin 3) * 256 + 256; omega

/-- The result array after the region: the row map of the merged argument. -/
theorem final (c : Dev nD) : (dats m 0 c).arrAt 1 cfg0.N = outerRows (V m c main_v0) :=
  (dats m 0 c).arrAt_eq_of_cover 1 (outerRows (V m c main_v0)) (fun t _ => flushed_eq m c t) cover

/-- The merged argument, as the region finds it, is the host's reshape of the kernel's argument. -/
theorem merged_eq (c : Dev nD) :
    (V m c main_v0 : S64x4096x16.Idx → EReal)
      = shapeCast S64x4096x16 (m ((c : Thread nD τ).loc main_arg0)) shapeCasts_S4x16x4096x16_S64x4096x16 := by
  show StableHlo.after hostOps0 (fun b => m (c, b)) (Proc.devRef .tc main_v0) = _
  after_results
  rfl

end Cert.KernelIdeal.Blocks

end
-- ==== Proof.KernelRun.lean ====
/-
  The kernel's run, with its result named.

  After the region the host views the result array [64, 4096, 256] as [4, 16, 4096, 256]. The region's array holds
  the row map of the merged argument (Proof/Blocks.lean), the merged argument is the reshape of the argument, and the
  row map between the two reshapes is the feature map itself (Proof/Spec.lean): every weakly fair execution of the
  idealized kernel ends with its result at the feature map of the argument, and the argument unchanged.
-/
import proofs.«104835_j23983097380979_2_alg».proof.Proof.Blocks

set_option maxRecDepth 16384

noncomputable section

namespace Cert.KernelIdeal.KernelRun

open Cert.KernelIdeal Cert.KernelIdeal.Gen Cert.KernelIdeal.Blocks
open Idealize.ShloMosaic Idealize.ShloMosaic.TcCoe Idealize.ShloMosaic.Tactic Cert.Outer
open Idealize.SL Idealize.SL.Sem

variable (m : (ℓ : Loc nD τ sig) → Buf (Elt Ideal) ℓ) (ρ : Dev nD → PrngReg)

/-- The line after the region: the result is the region's array, viewed [4, 16, 4096, 256]. -/
theorem tail_eq (c : Dev nD) :
    Pipeline.afterTail₀ cfgs (dats m) 0 (V0 m) [hostOps1] c main_v2
      = shapeCast S4x16x4096x256 ((dats m 0 c).arrAt 1 cfg0.N) shapeCasts_S64x4096x256_S4x16x4096x256 := by
  unfold Pipeline.afterTail₀
  show StableHlo.after hostOps1 _ (Proc.devRef .tc main_v2) = _
  after_results
  exact congrArg (fun A => shapeCast S4x16x4096x256 A shapeCasts_S64x4096x256_S4x16x4096x256)
    (Pipeline.withArrays_arr spec0 launch0.win.arr_inj c (V0 m c) (fun w => (dats m 0 c).arrAt w cfg0.N) 1)

/-- The result after the run is the feature map of the argument. -/
theorem result_eq (c : Dev nD) :
    Pipeline.afterTail₀ cfgs (dats m) 0 (V0 m) [hostOps1] c main_v2 = outer (m ((c.tc : Thread nD τ).loc main_arg0)) := by
  rw [tail_eq, final, merged_eq]
  exact outerRows_reshape _ _ _

/-- Every weakly fair execution of the idealized kernel terminates with its result at the feature map of its
    argument, the argument unchanged. -/
theorem run : θ_run defs (onTc (τ := τ) (main (F := Ideal))) ⟨m, fun _ => 0, ρ⟩ fun r => ∀ c : Dev nD,
      r.2.mem ((c.tc : Thread nD τ).loc main_v2) = outer (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.KernelRun

end
-- ==== Proof.lean ====
/-
  The certificate of the second-order feature map: for x of shape [4, 16, 4096, 16], the array [4, 16, 4096, 256]
  whose entry (b, h, s, 16·p + q) is x[b,h,s,p] · x[b,h,s,q] / √16.

  The kernel merges the two leading axes, forms each row's outer product with itself on blocks of 1024 rows, scales by
  the float 0.25 and splits the leading axis again; the reference broadcasts the argument against itself, flattens the
  last two axes and divides by the float 4.0. Over the extended reals both are ONE function of the argument
  (Proof/Spec.lean's `outer`): the reference entry by entry (Proof/RefValue.lean), the kernel through its blocks
  (Proof/Payload.lean, Proof/Blocks.lean, Proof/KernelRun.lean); the quotient by 4 is the product with ¼ on every
  extended real, so the inputs' finiteness is never used. The three frames are the programs' runs with the result
  dropped, and the idealization rewrote nothing, so there is nothing to preserve.
-/
import proofs.«104835_j23983097380979_2_alg».proof.Defs
import proofs.«104835_j23983097380979_2_alg».proof.Proof.Gen.Kernel
import proofs.«104835_j23983097380979_2_alg».proof.Proof.Gen.Kernel.Skeleton
import proofs.«104835_j23983097380979_2_alg».proof.Proof.Gen.Kernel.Launch
import proofs.«104835_j23983097380979_2_alg».proof.Proof.Gen.Kernel.Points
import proofs.«104835_j23983097380979_2_alg».proof.Proof.Gen.Kernel.Frame
import proofs.«104835_j23983097380979_2_alg».proof.Proof.Gen.KernelIdeal
import proofs.«104835_j23983097380979_2_alg».proof.Proof.Gen.KernelIdeal.Skeleton
import proofs.«104835_j23983097380979_2_alg».proof.Proof.Gen.KernelIdeal.Launch
import proofs.«104835_j23983097380979_2_alg».proof.Proof.Gen.KernelIdeal.Points
import proofs.«104835_j23983097380979_2_alg».proof.Proof.Gen.KernelIdeal.Frame
import proofs.«104835_j23983097380979_2_alg».proof.Proof.Gen.ReferenceIdeal
import proofs.«104835_j23983097380979_2_alg».proof.Proof.Gen.Pre_finite_inputs
import proofs.«104835_j23983097380979_2_alg».proof.Proof.Gen.ReferenceIdeal.Run
import proofs.«104835_j23983097380979_2_alg».proof.Proof.Gen.ReferenceIdeal.Read
import proofs.«104835_j23983097380979_2_alg».proof.Proof.RefValue
import proofs.«104835_j23983097380979_2_alg».proof.Proof.KernelRun
import Idealize.ShloMosaic.Adequacy
import Idealize.ShloMosaic.Init

noncomputable section

namespace Cert.Proof

open Idealize.ShloMosaic Idealize.SL.Sem Cert.Kernel

/-- The kernel as printed runs and keeps its argument. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at the feature map of the argument they agree on. -/
theorem algebraic : Cert.algebraic_KernelIdeal_ReferenceIdeal := by
  intro m ρ m' ρ' _ hagree
  refine ⟨fun c => Cert.Outer.outer (m ((c.tc : Thread Cert.KernelIdeal.nD Cert.KernelIdeal.τ).loc Cert.KernelIdeal.main_arg0)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
